-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x1 : Shape := ⟨2, ![8192, 1]⟩
abbrev S4096x14336 : Shape := ⟨2, ![4096, 14336]⟩
abbrev S14336x4096 : Shape := ⟨2, ![14336, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S4096x14336 : S_.BroadcastsInDim S4096x14336 (![] : Fin 0 → Fin S4096x14336.rank)
  reducesTo_S4096x14336_S_d0_1 : S4096x14336.ReducesTo [0, 1] S_
  bcast_S_S14336x4096 : S_.BroadcastsInDim S14336x4096 (![] : Fin 0 → Fin S14336x4096.rank)
  reducesTo_S14336x4096_S_d0_1 : S14336x4096.ReducesTo [0, 1] S_

variable [Facts]

def fn_part1 {F : FTy → Type} [FloatOps F] (main_arg4 : FVec F S14336x4096 .f32) (main_v13 : IVec S_ 1) (main_v16 : IVec S4096x14336 1) : IVec S_ 1 :=
  let main_c_5 : IVec S_ 1 := constantI S_ 1 1#1
  let main_v17 : IVec S_ 1 := (fun x v => Host.reduce IntOp.andi x v reducesTo_S4096x14336_S_d0_1 h_S_) main_v16 main_c_5
  let main_v18 : IVec S_ 1 := andi main_v13 main_v17
  let main_v19 : FVec F S14336x4096 .f32 := Host.absf main_arg4
  let main_cst_6 : FVec F S_ .f32 := constant S_ .f32 0x7F800000#32
  let main_v20 : FVec F S14336x4096 .f32 := broadcastInDim S14336x4096 ![] bcast_S_S14336x4096 main_cst_6
  let main_v21 : IVec S14336x4096 1 := cmpf .olt main_v19 main_v20
  let main_c_7 : IVec S_ 1 := constantI S_ 1 1#1
  let main_v22 : IVec S_ 1 := (fun x v => Host.reduce IntOp.andi x v reducesTo_S14336x4096_S_d0_1 h_S_) main_v21 main_c_7
  let main_v23 : IVec S_ 1 := andi main_v18 main_v22
  main_v23

def fn {F : FTy → Type} [FloatOps F] (main_arg0 : FVec F S8192x4096 .f32) (main_arg1 : FVec F S8192x1 .f32) (main_arg2 : FVec F S4096x14336 .f32) (main_arg3 : FVec F S4096x14336 .f32) (main_arg4 : FVec F S14336x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  let main_v14 : FVec F S4096x14336 .f32 := Host.absf main_arg3
  let main_cst_4 : FVec F S_ .f32 := constant S_ .f32 0x7F800000#32
  let main_v15 : FVec F S4096x14336 .f32 := broadcastInDim S4096x14336 ![] bcast_S_S4096x14336 main_cst_4
  let main_v16 : IVec S4096x14336 1 := cmpf .olt main_v14 main_v15
  fn_part1 (F := F) main_arg4 main_v13 main_v16
-- ==== Kernel.lean ====
abbrev S8192x4096 : Shape := ⟨2, ![8192, 4096]⟩
abbrev S8192x1 : Shape := ⟨2, ![8192, 1]⟩
abbrev S4096x14336 : Shape := ⟨2, ![4096, 14336]⟩
abbrev S14336x4096 : Shape := ⟨2, ![14336, 4096]⟩
abbrev S512x4096 : Shape := ⟨2, ![512, 4096]⟩
abbrev S512x1 : Shape := ⟨2, ![512, 1]⟩
abbrev S4096x512 : Shape := ⟨2, ![4096, 512]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x1, .f32⟩
  | .hbm, ⟨2, _⟩ => ⟨S4096x14336, .f32⟩
  | .hbm, ⟨3, _⟩ => ⟨S4096x14336, .f32⟩
  | .hbm, ⟨4, _⟩ => ⟨S14336x4096, .f32⟩
  | .hbm, ⟨5, _⟩ => ⟨S8192x4096, .bf16⟩
  | .hbm, ⟨6, _⟩ => ⟨S4096x14336, .bf16⟩
  | .hbm, ⟨7, _⟩ => ⟨S4096x14336, .bf16⟩
  | .hbm, ⟨8, _⟩ => ⟨S14336x4096, .bf16⟩
  | .hbm, ⟨9, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S512x1, .f32⟩
  | .local _ .vmem, ⟨3, _⟩ => ⟨S512x1, .f32⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .f32⟩
  | .local _ .vmem, ⟨11, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 28], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c27_i32 : BitVec 32 := 27#32
  let v18 : BitVec 1 := Scalar.cmpi .eq arg1 c27_i32
  let v19 : BitVec 32 := Scalar.extui v18
  let c0_i32_10 : BitVec 32 := 0#32
  let v20 : BitVec 1 := Scalar.cmpi .ne v19 c0_i32_10
  v20

def k0_cond3 (i : grid0.Coords) : BitVec 1 :=
  let arg1 : BitVec 32 := BitVec.ofNat 32 (i 1).val
  let c27_i32_11 : BitVec 32 := 27#32
  let v21 : BitVec 1 := Scalar.cmpi .ne arg1 c27_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x1_S512x1_0_0 : ∀ a, (![0, 0] : Fin 2 → Nat) a + S512x1.size a ≤ S512x1.size a
  h_S512x1 : 0 < S512x1.numel
  broadcasts_S512x1_S512x4096 : S512x1.Broadcasts S512x4096
  dot_S512x4096_S4096x512_S512x512_1_0_0_1_n_n_wf : DotDims.WF S512x4096 S4096x512 S512x512 [1] [0] [0] [1] [] []
  dot_S512x512_S512x4096_S512x4096_1_0_0_1_n_n_wf : DotDims.WF S512x512 S512x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x14336.size a
  hwx0_2 : ∀ i : grid0.Coords, EltTy.bits .bf16 = 32 ∨ (Rect.block (s := S4096x14336) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x14336.size a
  hwx0_3 : ∀ i : grid0.Coords, EltTy.bits .bf16 = 32 ∨ (Rect.block (s := S4096x14336) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S14336x4096.size a
  hwx0_4 : ∀ i : grid0.Coords, EltTy.bits .bf16 = 32 ∨ (Rect.block (s := S14336x4096) S512x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S8192x4096.size a
  hwx0_5 : ∀ i : grid0.Coords, EltTy.bits .f32 = 32 ∨ (Rect.block (s := S8192x4096) S512x4096.size (cc0_transform_5 i) (hinb0_5 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x1 : Shape := ⟨2, ![8192, 1]⟩
abbrev S4096x14336 : Shape := ⟨2, ![4096, 14336]⟩
abbrev S14336x4096 : Shape := ⟨2, ![14336, 4096]⟩
abbrev S8192x14336 : Shape := ⟨2, ![8192, 14336]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1, .f32⟩
  | .hbm, ⟨2, _⟩ => ⟨S4096x14336, .f32⟩
  | .hbm, ⟨3, _⟩ => ⟨S4096x14336, .f32⟩
  | .hbm, ⟨4, _⟩ => ⟨S14336x4096, .f32⟩
  | .hbm, ⟨5, _⟩ => ⟨S8192x14336, .f32⟩
  | .hbm, ⟨6, _⟩ => ⟨S8192x14336, .f32⟩
  | .hbm, ⟨7, _⟩ => ⟨S8192x14336, .f32⟩
  | .hbm, ⟨8, _⟩ => ⟨S8192x14336, .f32⟩
  | .hbm, ⟨9, _⟩ => ⟨S_, .f32⟩
  | .hbm, ⟨10, _⟩ => ⟨S8192x14336, .f32⟩
  | .hbm, ⟨11, _⟩ => ⟨S8192x14336, .f32⟩
  | .hbm, ⟨12, _⟩ => ⟨S_, .f32⟩
  | .hbm, ⟨13, _⟩ => ⟨S8192x14336, .f32⟩
  | .hbm, ⟨14, _⟩ => ⟨S8192x14336, .f32⟩
  | .hbm, ⟨15, _⟩ => ⟨S8192x14336, .f32⟩
  | .hbm, ⟨16, _⟩ => ⟨S8192x14336, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  bcast_S_S8192x14336 : S_.BroadcastsInDim S8192x14336 (![] : Fin 0 → Fin S8192x14336.rank)
  bcast_S8192x1_S8192x4096_0_1 : S8192x1.BroadcastsInDim S8192x4096 (![0, 1] : Fin 2 → Fin S8192x4096.rank)
  dot_S8192x4096_S4096x14336_S8192x14336_1_0_0_1_n_n_wf : DotDims.WF S8192x4096 S4096x14336 S8192x14336 [1] [0] [0] [1] [] []
  dot_S8192x14336_S14336x4096_S8192x4096_1_0_0_1_n_n_wf : DotDims.WF S8192x14336 S14336x4096 S8192x4096 [1] [0] [0] [1] [] []

variable [Facts₀]

def dot_S8192x4096_S4096x14336_S8192x14336_1_0_0_1_n_n : DotDims S8192x4096 S4096x14336 S8192x14336 where
  lhsContracting := [1]
  rhsContracting := [0]
  lhsNonContracting := [0]
  rhsNonContracting := [1]
  lhsBatch := []
  rhsBatch := []
  wf := dot_S8192x4096_S4096x14336_S8192x14336_1_0_0_1_n_n_wf
def dot_S8192x14336_S14336x4096_S8192x4096_1_0_0_1_n_n : DotDims S8192x14336 S14336x4096 S8192x4096 where
  lhsContracting := [1]
  rhsContracting := [0]
  lhsNonContracting := [0]
  rhsNonContracting := [1]
  lhsBatch := []
  rhsBatch := []
  wf := dot_S8192x14336_S14336x4096_S8192x4096_1_0_0_1_n_n_wf

class Facts : Prop extends Facts₀ where

variable [Facts]
-- ==== Proof.K.Cases.lean ====
/-
  The grid is 16 row blocks by 28 slices of the hidden axis, walked row block first: point t is row block t / 28,
  slice t % 28. The body branches three times on the slice alone: it zeroes the output block at slice 0, it closes
  the block (adds the last partial product and scales by the routing column) at slice 27, and it adds the partial
  product in place at every other slice. Here: those three conditions decided over the 448 points, the fact that
  some store into the output block happens at every point, and names for the staging buffers the body is called with.
-/
import proofs.«160657_j23072564314325_2_alg».proof.Proof.Gen.Kernel.Frame
import proofs.«160657_j23072564314325_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zeroing branch is taken exactly at slice 0 of a row block. -/
theorem hcond1 : ∀ t : Fin cfg0.N, k0_cond1 (grid0.coords t) = 1#1 ↔ t.val % 28 = 0 :=
  (by decide +kernel : ∀ t : Fin grid0.N, k0_cond1 (grid0.coords t) = 1#1 ↔ t.val % 28 = 0)

/-- The closing branch is taken exactly at slice 27. -/
theorem hcond2 : ∀ t : Fin cfg0.N, k0_cond2 (grid0.coords t) = 1#1 ↔ t.val % 28 = 27 :=
  (by decide +kernel : ∀ t : Fin grid0.N, k0_cond2 (grid0.coords t) = 1#1 ↔ t.val % 28 = 27)

/-- The accumulating branch is taken exactly off slice 27. -/
theorem hcond3 : ∀ t : Fin cfg0.N, k0_cond3 (grid0.coords t) = 1#1 ↔ ¬ t.val % 28 = 27 :=
  (by decide +kernel : ∀ t : Fin grid0.N, k0_cond3 (grid0.coords t) = 1#1 ↔ ¬ t.val % 28 = 27)

/-- Each window's current staging buffer at point `t`, as the pipeline passes it to the body, and its wholeness. -/
abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x4096 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x4096 .f32 := win0_5.stage (cfg0.slots t 5)
abbrev hs5 (t : Fin cfg0.N) : (ms5 t).IsWhole := hstage0_5 ((cfg0.slots t 5).cast nbuf0_5)

/-- One staging buffer of the output window, through which its contents are stated (which one does not matter:
    a buffer's contents read back through a whole view do not depend on the buffer). -/
abbrev VO : View sig .tc .vmem S512x4096 .f32 := (Memref.whole cc0_stg5_0 : Memref sig .tc .vmem S512x4096 .f32).view

end Cert.Kernel.Hand

end
-- ==== Proof.K.RunMid.lean ====
/-
  The body at a middle slice of a row block (neither the first nor the last): it loads the output block as the
  slice before left it, adds this slice's partial product, and stores the sum back whole.
-/
import proofs.«160657_j23072564314325_2_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer in this case (the last store first), WITH the
    body's triple: on whole staging buffers, the five inputs' at their blocks' contents, the body runs to a
    continuation holding the inputs' as they were and the output's with those pieces written. The pieces are what
    the run finds when the buffer is handed to the continuation. -/
noncomputable def runMid (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : ¬ k0_cond2 i = 1#1) (hc3 : k0_cond3 i = 1#1)
    (x0 : Vec F S512x4096 .bf16) (x1 : Vec F S512x1 .f32) (x2 : Vec F S4096x512 .bf16) (x3 : Vec F S4096x512 .bf16) (x4 : Vec F S512x4096 .bf16) (xo : Vec F S512x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xo
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Hand

end
-- ==== Proof.K.RunFirst.lean ====
/-
  The body at the first slice of a row block: it stores zeros over the whole output block, then loads the block
  back, adds this slice's partial product, and stores the sum whole.
-/
import proofs.«160657_j23072564314325_2_alg».proof.Proof.K.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer in this case (the last store first), WITH the
    body's triple: on whole staging buffers, the five inputs' at their blocks' contents, the body runs to a
    continuation holding the inputs' as they were and the output's with those pieces written. The pieces are what
    the run finds when the buffer is handed to the continuation. -/
noncomputable def runFirst (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : k0_cond1 i = 1#1) (hc2 : ¬ k0_cond2 i = 1#1) (hc3 : k0_cond3 i = 1#1)
    (x0 : Vec F S512x4096 .bf16) (x1 : Vec F S512x1 .f32) (x2 : Vec F S4096x512 .bf16) (x3 : Vec F S4096x512 .bf16) (x4 : Vec F S512x4096 .bf16) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Hand

end
-- ==== Proof.K.RunLast.lean ====
/-
  The body at the last slice of a row block: it loads the routing column and the output block as the slice before
  left it, adds this slice's partial product, scales each row by its routing weight, and stores the result whole.
-/
import proofs.«160657_j23072564314325_2_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer in this case (the last store first), WITH the
    body's triple: on whole staging buffers, the five inputs' at their blocks' contents, the body runs to a
    continuation holding the inputs' as they were and the output's with those pieces written. The pieces are what
    the run finds when the buffer is handed to the continuation. -/
noncomputable def runLast (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : k0_cond2 i = 1#1) (hc3 : ¬ k0_cond3 i = 1#1)
    (x0 : Vec F S512x4096 .bf16) (x1 : Vec F S512x1 .f32) (x2 : Vec F S4096x512 .bf16) (x3 : Vec F S4096x512 .bf16) (x4 : Vec F S512x4096 .bf16) (xo : Vec F S512x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xo
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Hand

end
-- ==== Proof.K.Frame.lean ====
/-
  The frame of the kernel program: what the output's staging buffer holds after the body at every grid point
  (a recursion along the points of a row block: zeros plus the first partial product, then one more partial product
  per slice, then the closing scale by the routing column), the pipeline's proof data over it, the body obligation
  at a generic point by the three cases of the slice, the run of the whole program, and the frame statement.
-/
import proofs.«160657_j23072564314325_2_alg».proof.Proof.K.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- At a first slice the two stores each cover the whole block. -/
theorem coverFirst (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : k0_cond1 i = 1#1) (hc2 : ¬ k0_cond2 i = 1#1) (hc3 : k0_cond3 i = 1#1) (x0 : Vec F S512x4096 .bf16) (x1 : Vec F S512x1 .f32) (x2 : Vec F S4096x512 .bf16) (x3 : Vec F S4096x512 .bf16) (x4 : Vec F S512x4096 .bf16) (y : S512x4096.Idx) :
    ∃ pc ∈ (runFirst c i arg2 harg2 arg3 harg3 arg4 harg4 arg5 harg5 arg6 harg6 arg7 harg7 hc1 hc2 hc3 x0 x1 x2 x3 x4).1, y ∈ pc.1.set :=
  View.cover_of_tiledL (runFirst c i arg2 harg2 arg3 harg3 arg4 harg4 arg5 harg5 arg6 harg6 arg7 harg7 hc1 hc2 hc3 x0 x1 x2 x3 x4).1 S512x4096.size (by sl_kernel_rfl) y

/-- The block after a first slice: the run's pieces read back. -/
def outFirst (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : k0_cond1 i = 1#1) (hc2 : ¬ k0_cond2 i = 1#1) (hc3 : k0_cond3 i = 1#1) (x0 : Vec F S512x4096 .bf16) (x1 : Vec F S512x1 .f32) (x2 : Vec F S4096x512 .bf16) (x3 : Vec F S4096x512 .bf16) (x4 : Vec F S512x4096 .bf16) : Vec F S512x4096 .f32 :=
  VO.read (Elt F) (VO.writes (Elt F) VO.junk (runFirst c i arg2 harg2 arg3 harg3 arg4 harg4 arg5 harg5 arg6 harg6 arg7 harg7 hc1 hc2 hc3 x0 x1 x2 x3 x4).1)

/-- At a middle slice the one store covers the whole block. -/
theorem coverMid (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : ¬ k0_cond2 i = 1#1) (hc3 : k0_cond3 i = 1#1) (x0 : Vec F S512x4096 .bf16) (x1 : Vec F S512x1 .f32) (x2 : Vec F S4096x512 .bf16) (x3 : Vec F S4096x512 .bf16) (x4 : Vec F S512x4096 .bf16) (xo : Vec F S512x4096 .f32) (y : S512x4096.Idx) :
    ∃ pc ∈ (runMid c i arg2 harg2 arg3 harg3 arg4 harg4 arg5 harg5 arg6 harg6 arg7 harg7 hc1 hc2 hc3 x0 x1 x2 x3 x4 xo).1, y ∈ pc.1.set :=
  View.cover_of_tiledL (runMid c i arg2 harg2 arg3 harg3 arg4 harg4 arg5 harg5 arg6 harg6 arg7 harg7 hc1 hc2 hc3 x0 x1 x2 x3 x4 xo).1 S512x4096.size (by sl_kernel_rfl) y

/-- The block after a middle slice, over what the slice before left (`xo`). -/
def outMid (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : ¬ k0_cond2 i = 1#1) (hc3 : k0_cond3 i = 1#1) (x0 : Vec F S512x4096 .bf16) (x1 : Vec F S512x1 .f32) (x2 : Vec F S4096x512 .bf16) (x3 : Vec F S4096x512 .bf16) (x4 : Vec F S512x4096 .bf16) (xo : Vec F S512x4096 .f32) : Vec F S512x4096 .f32 :=
  VO.read (Elt F) (VO.writes (Elt F) VO.junk (runMid c i arg2 harg2 arg3 harg3 arg4 harg4 arg5 harg5 arg6 harg6 arg7 harg7 hc1 hc2 hc3 x0 x1 x2 x3 x4 xo).1)

/-- At a last slice the one store covers the whole block. -/
theorem coverLast (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : k0_cond2 i = 1#1) (hc3 : ¬ k0_cond3 i = 1#1) (x0 : Vec F S512x4096 .bf16) (x1 : Vec F S512x1 .f32) (x2 : Vec F S4096x512 .bf16) (x3 : Vec F S4096x512 .bf16) (x4 : Vec F S512x4096 .bf16) (xo : Vec F S512x4096 .f32) (y : S512x4096.Idx) :
    ∃ pc ∈ (runLast c i arg2 harg2 arg3 harg3 arg4 harg4 arg5 harg5 arg6 harg6 arg7 harg7 hc1 hc2 hc3 x0 x1 x2 x3 x4 xo).1, y ∈ pc.1.set :=
  View.cover_of_tiledL (runLast c i arg2 harg2 arg3 harg3 arg4 harg4 arg5 harg5 arg6 harg6 arg7 harg7 hc1 hc2 hc3 x0 x1 x2 x3 x4 xo).1 S512x4096.size (by sl_kernel_rfl) y

/-- The block after a last slice, over what the slice before left (`xo`). -/
def outLast (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : k0_cond2 i = 1#1) (hc3 : ¬ k0_cond3 i = 1#1) (x0 : Vec F S512x4096 .bf16) (x1 : Vec F S512x1 .f32) (x2 : Vec F S4096x512 .bf16) (x3 : Vec F S4096x512 .bf16) (x4 : Vec F S512x4096 .bf16) (xo : Vec F S512x4096 .f32) : Vec F S512x4096 .f32 :=
  VO.read (Elt F) (VO.writes (Elt F) VO.junk (runLast c i arg2 harg2 arg3 harg3 arg4 harg4 arg5 harg5 arg6 harg6 arg7 harg7 hc1 hc2 hc3 x0 x1 x2 x3 x4 xo).1)

/-! ## The case a point is in, from its slice -/

theorem first1 (t : Fin cfg0.N) (h0 : t.val % 28 = 0) : k0_cond1 (grid0.coords t) = 1#1 := (hcond1 t).mpr h0
theorem first2 (t : Fin cfg0.N) (h0 : t.val % 28 = 0) : ¬ k0_cond2 (grid0.coords t) = 1#1 := fun h => by have := (hcond2 t).mp h; omega
theorem first3 (t : Fin cfg0.N) (h0 : t.val % 28 = 0) : k0_cond3 (grid0.coords t) = 1#1 := (hcond3 t).mpr (by omega)
theorem mid1 (t : Fin cfg0.N) (h0 : ¬ t.val % 28 = 0) : ¬ k0_cond1 (grid0.coords t) = 1#1 := fun h => h0 ((hcond1 t).mp h)
theorem mid2 (t : Fin cfg0.N) (h27 : ¬ t.val % 28 = 27) : ¬ k0_cond2 (grid0.coords t) = 1#1 := fun h => h27 ((hcond2 t).mp h)
theorem mid3 (t : Fin cfg0.N) (h27 : ¬ t.val % 28 = 27) : k0_cond3 (grid0.coords t) = 1#1 := (hcond3 t).mpr h27
theorem last1 (t : Fin cfg0.N) (h27 : t.val % 28 = 27) : ¬ k0_cond1 (grid0.coords t) = 1#1 := fun h => by have := (hcond1 t).mp h; omega
theorem last2 (t : Fin cfg0.N) (h27 : t.val % 28 = 27) : k0_cond2 (grid0.coords t) = 1#1 := (hcond2 t).mpr h27
theorem last3 (t : Fin cfg0.N) (h27 : t.val % 28 = 27) : ¬ k0_cond3 (grid0.coords t) = 1#1 := fun h => (hcond3 t).mp h h27

/-! ## What the output's staging buffer holds after each point -/

/-- THE ACCUMULATION. The output block after the body at position `n`: at a first slice what that case leaves; at
    a later slice that slice's case run over what position `n - 1` left (the buffer is not written back between). -/
def outsAt (c : Dev nD) : (n : ℕ) → n < cfg0.N → Vec F S512x4096 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (first1 ⟨0, hn⟩ (Nat.zero_mod _)) (first2 ⟨0, hn⟩ (Nat.zero_mod _)) (first3 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 28 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (first1 ⟨n + 1, hn⟩ h0) (first2 ⟨n + 1, hn⟩ h0) (first3 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else if h27 : (n + 1) % 28 = 27 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (last1 ⟨n + 1, hn⟩ h27) (last2 ⟨n + 1, hn⟩ h27) (last3 ⟨n + 1, hn⟩ h27) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn))
    else
      outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (mid1 ⟨n + 1, hn⟩ h0) (mid2 ⟨n + 1, hn⟩ h27) (mid3 ⟨n + 1, hn⟩ h27) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn))

/-- `outsAt` at a first slice. -/
theorem outsAt_first (c : Dev nD) (t : Fin cfg0.N) (h0 : t.val % 28 = 0) :
    outsAt m c t.val t.isLt = outFirst c (grid0.coords t) (ms0 t) (hs0 t) (ms1 t) (hs1 t) (ms2 t) (hs2 t) (ms3 t) (hs3 t) (ms4 t) (hs4 t) (ms5 t) (hs5 t) (first1 t h0) (first2 t h0) (first3 t h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt` at a middle slice: over what the point before left. -/
theorem outsAt_mid (c : Dev nD) (t : Fin cfg0.N) (h0 : ¬ t.val % 28 = 0) (h27 : ¬ t.val % 28 = 27) :
    outsAt m c t.val t.isLt = outMid c (grid0.coords t) (ms0 t) (hs0 t) (ms1 t) (hs1 t) (ms2 t) (hs2 t) (ms3 t) (hs3 t) (ms4 t) (hs4 t) (ms5 t) (hs5 t) (mid1 t h0) (mid2 t h27) (mid3 t h27) (iblk m c 0 t) (iblk m c 1 t) (iblk m c 2 t) (iblk m c 3 t) (iblk m c 4 t)
      (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h27).trans rfl)

/-- `outsAt` at a last slice: over what the point before left. -/
theorem outsAt_last (c : Dev nD) (t : Fin cfg0.N) (h27 : t.val % 28 = 27) :
    outsAt m c t.val t.isLt = outLast c (grid0.coords t) (ms0 t) (hs0 t) (ms1 t) (hs1 t) (ms2 t) (hs2 t) (ms3 t) (hs3 t) (ms4 t) (hs4 t) (ms5 t) (hs5 t) (last1 t h27) (last2 t h27) (last3 t h27) (iblk m c 0 t) (iblk m c 1 t) (iblk m c 2 t) (iblk m c 3 t) (iblk m c 4 t)
      (outsAt m c (t.val - 1) (Nat.lt_of_le_of_lt (Nat.sub_le _ _) t.isLt)) := by
  obtain ⟨n, hn⟩ := t
  cases n with
  | zero => exact absurd h27 (by show ¬ (0 % 28 = 27); decide)
  | succ n => exact (dif_neg (by dsimp only at h27; omega)).trans ((dif_pos h27).trans rfl)

/-! ## The pipeline's proof data -/

/-- The proof data on core `c`: the arrays as the region finds them; after the body each input's buffer at its
    block and the output's at `outsAt`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Some store into the output block happens at every point: the closing branch is taken at slice 27 and the
    accumulating one everywhere else. -/
theorem live5 (i : grid0.Coords) : cfg0.idle 5 i = false := by
  have key : ∀ j : Fin 28,
      (Scalar.cmpi .ne (Scalar.extui (Scalar.cmpi .eq (BitVec.ofNat 32 j.val) 27#32)) 0#32 == 1#1
        || Scalar.cmpi .ne (Scalar.extui (Scalar.cmpi .ne (BitVec.ofNat 32 j.val) 27#32)) 0#32 == 1#1) = true := by decide
  have h := key (i 1)
  change (k0_cond2 i == 1#1 || k0_cond3 i == 1#1) = true at h
  show (!(k0_cond1 i == 1#1) && !(k0_cond2 i == 1#1) && !(k0_cond3 i == 1#1)) = false
  cases h2 : (k0_cond2 i == 1#1) <;> cases h3 : (k0_cond3 i == 1#1) <;> simp_all

/-- Past a first slice the output's current staging buffer holds what the body left at the point before: the point
    is not the first, and the buffer is written back only after a last slice. -/
theorem before5_kept (c : Dev nD) (t : Fin cfg0.N) (h0 : ¬ t.val % 28 = 0) (d) :
    (dats m 0 c).before 5 t d = (outsAt m c (t.val - 1) (Nat.lt_of_le_of_lt (Nat.sub_le _ _) t.isLt)) := by
  rw [Dat.before_out_kept _ 5 rfl t (by omega) (Bool.eq_false_iff.mpr fun h => by have := (flush0_5 _).mp h; dsimp only at this; omega)
    live5 (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the slice says which case the point is in; past
    a first slice the output's buffer holds what the point before left; so that case's run applies; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 28 = 0
  · rw [outsAt_first m c t h0]
    unfold outFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ (first1 t h0) (first2 t h0) (first3 t h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · simp only [before5_kept m c t h0]
    by_cases h27 : t.val % 28 = 27
    · rw [outsAt_last m c t h27]
      unfold outLast
      iintro ⟨HΦ, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ (last1 t h27) (last2 t h27) (last3 t h27) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast c _ _ _ _ _ _ _ _ _ _ _ _ _ _ _ _ _ _ _ _ _ _)
    · rw [outsAt_mid m c t h0 h27]
      unfold outMid
      iintro ⟨HΦ, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ (mid1 t h0) (mid2 t h27) (mid3 t h27) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverMid c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [live5]
  exact sound_body m c t

/-! ## The run and the frame -/

set_option backward.isDefEq.respectTransparency.types false in
/-- From any memory with zero counters: every weakly fair execution of the program terminates, and every final
    state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KI.Cases.lean ====
/-
  The grid is 16 row blocks by 28 slices of the hidden axis, walked row block first: point t is row block t / 28,
  slice t % 28. The body branches three times on the slice alone: it zeroes the output block at slice 0, it closes
  the block (adds the last partial product and scales by the routing column) at slice 27, and it adds the partial
  product in place at every other slice. Here: those three conditions decided over the 448 points, the fact that
  some store into the output block happens at every point, and names for the staging buffers the body is called with.
-/
import proofs.«160657_j23072564314325_2_alg».proof.Proof.Gen.KernelIdeal.Frame
import proofs.«160657_j23072564314325_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zeroing branch is taken exactly at slice 0 of a row block. -/
theorem hcond1 : ∀ t : Fin cfg0.N, k0_cond1 (grid0.coords t) = 1#1 ↔ t.val % 28 = 0 :=
  (by decide +kernel : ∀ t : Fin grid0.N, k0_cond1 (grid0.coords t) = 1#1 ↔ t.val % 28 = 0)

/-- The closing branch is taken exactly at slice 27. -/
theorem hcond2 : ∀ t : Fin cfg0.N, k0_cond2 (grid0.coords t) = 1#1 ↔ t.val % 28 = 27 :=
  (by decide +kernel : ∀ t : Fin grid0.N, k0_cond2 (grid0.coords t) = 1#1 ↔ t.val % 28 = 27)

/-- The accumulating branch is taken exactly off slice 27. -/
theorem hcond3 : ∀ t : Fin cfg0.N, k0_cond3 (grid0.coords t) = 1#1 ↔ ¬ t.val % 28 = 27 :=
  (by decide +kernel : ∀ t : Fin grid0.N, k0_cond3 (grid0.coords t) = 1#1 ↔ ¬ t.val % 28 = 27)

/-- Each window's current staging buffer at point `t`, as the pipeline passes it to the body, and its wholeness. -/
abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x4096 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x4096 .f32 := win0_5.stage (cfg0.slots t 5)
abbrev hs5 (t : Fin cfg0.N) : (ms5 t).IsWhole := hstage0_5 ((cfg0.slots t 5).cast nbuf0_5)

/-- One staging buffer of the output window, through which its contents are stated (which one does not matter:
    a buffer's contents read back through a whole view do not depend on the buffer). -/
abbrev VO : View sig .tc .vmem S512x4096 .f32 := (Memref.whole cc0_stg5_0 : Memref sig .tc .vmem S512x4096 .f32).view

end Cert.KernelIdeal.Hand

end
-- ==== Proof.KI.RunMid.lean ====
/-
  The body at a middle slice of a row block (neither the first nor the last): it loads the output block as the
  slice before left it, adds this slice's partial product, and stores the sum back whole.
-/
import proofs.«160657_j23072564314325_2_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer in this case (the last store first), WITH the
    body's triple: on whole staging buffers, the five inputs' at their blocks' contents, the body runs to a
    continuation holding the inputs' as they were and the output's with those pieces written. The pieces are what
    the run finds when the buffer is handed to the continuation. -/
noncomputable def runMid (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : ¬ k0_cond2 i = 1#1) (hc3 : k0_cond3 i = 1#1)
    (x0 : Vec F S512x4096 .bf16) (x1 : Vec F S512x1 .f32) (x2 : Vec F S4096x512 .bf16) (x3 : Vec F S4096x512 .bf16) (x4 : Vec F S512x4096 .bf16) (xo : Vec F S512x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xo
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Hand

end
-- ==== Proof.KI.RunFirst.lean ====
/-
  The body at the first slice of a row block: it stores zeros over the whole output block, then loads the block
  back, adds this slice's partial product, and stores the sum whole.
-/
import proofs.«160657_j23072564314325_2_alg».proof.Proof.KI.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer in this case (the last store first), WITH the
    body's triple: on whole staging buffers, the five inputs' at their blocks' contents, the body runs to a
    continuation holding the inputs' as they were and the output's with those pieces written. The pieces are what
    the run finds when the buffer is handed to the continuation. -/
noncomputable def runFirst (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : k0_cond1 i = 1#1) (hc2 : ¬ k0_cond2 i = 1#1) (hc3 : k0_cond3 i = 1#1)
    (x0 : Vec F S512x4096 .bf16) (x1 : Vec F S512x1 .f32) (x2 : Vec F S4096x512 .bf16) (x3 : Vec F S4096x512 .bf16) (x4 : Vec F S512x4096 .bf16) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Hand

end
-- ==== Proof.KI.RunLast.lean ====
/-
  The body at the last slice of a row block: it loads the routing column and the output block as the slice before
  left it, adds this slice's partial product, scales each row by its routing weight, and stores the result whole.
-/
import proofs.«160657_j23072564314325_2_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer in this case (the last store first), WITH the
    body's triple: on whole staging buffers, the five inputs' at their blocks' contents, the body runs to a
    continuation holding the inputs' as they were and the output's with those pieces written. The pieces are what
    the run finds when the buffer is handed to the continuation. -/
noncomputable def runLast (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : k0_cond2 i = 1#1) (hc3 : ¬ k0_cond3 i = 1#1)
    (x0 : Vec F S512x4096 .bf16) (x1 : Vec F S512x1 .f32) (x2 : Vec F S4096x512 .bf16) (x3 : Vec F S4096x512 .bf16) (x4 : Vec F S512x4096 .bf16) (xo : Vec F S512x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xo
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Hand

end
-- ==== Proof.KI.Frame.lean ====
/-
  The frame of the kernel program: what the output's staging buffer holds after the body at every grid point
  (a recursion along the points of a row block: zeros plus the first partial product, then one more partial product
  per slice, then the closing scale by the routing column), the pipeline's proof data over it, the body obligation
  at a generic point by the three cases of the slice, the run of the whole program, and the frame statement.
-/
import proofs.«160657_j23072564314325_2_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- At a first slice the two stores each cover the whole block. -/
theorem coverFirst (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : k0_cond1 i = 1#1) (hc2 : ¬ k0_cond2 i = 1#1) (hc3 : k0_cond3 i = 1#1) (x0 : Vec F S512x4096 .bf16) (x1 : Vec F S512x1 .f32) (x2 : Vec F S4096x512 .bf16) (x3 : Vec F S4096x512 .bf16) (x4 : Vec F S512x4096 .bf16) (y : S512x4096.Idx) :
    ∃ pc ∈ (runFirst c i arg2 harg2 arg3 harg3 arg4 harg4 arg5 harg5 arg6 harg6 arg7 harg7 hc1 hc2 hc3 x0 x1 x2 x3 x4).1, y ∈ pc.1.set :=
  View.cover_of_tiledL (runFirst c i arg2 harg2 arg3 harg3 arg4 harg4 arg5 harg5 arg6 harg6 arg7 harg7 hc1 hc2 hc3 x0 x1 x2 x3 x4).1 S512x4096.size (by sl_kernel_rfl) y

/-- The block after a first slice: the run's pieces read back. -/
def outFirst (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : k0_cond1 i = 1#1) (hc2 : ¬ k0_cond2 i = 1#1) (hc3 : k0_cond3 i = 1#1) (x0 : Vec F S512x4096 .bf16) (x1 : Vec F S512x1 .f32) (x2 : Vec F S4096x512 .bf16) (x3 : Vec F S4096x512 .bf16) (x4 : Vec F S512x4096 .bf16) : Vec F S512x4096 .f32 :=
  VO.read (Elt F) (VO.writes (Elt F) VO.junk (runFirst c i arg2 harg2 arg3 harg3 arg4 harg4 arg5 harg5 arg6 harg6 arg7 harg7 hc1 hc2 hc3 x0 x1 x2 x3 x4).1)

/-- At a middle slice the one store covers the whole block. -/
theorem coverMid (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : ¬ k0_cond2 i = 1#1) (hc3 : k0_cond3 i = 1#1) (x0 : Vec F S512x4096 .bf16) (x1 : Vec F S512x1 .f32) (x2 : Vec F S4096x512 .bf16) (x3 : Vec F S4096x512 .bf16) (x4 : Vec F S512x4096 .bf16) (xo : Vec F S512x4096 .f32) (y : S512x4096.Idx) :
    ∃ pc ∈ (runMid c i arg2 harg2 arg3 harg3 arg4 harg4 arg5 harg5 arg6 harg6 arg7 harg7 hc1 hc2 hc3 x0 x1 x2 x3 x4 xo).1, y ∈ pc.1.set :=
  View.cover_of_tiledL (runMid c i arg2 harg2 arg3 harg3 arg4 harg4 arg5 harg5 arg6 harg6 arg7 harg7 hc1 hc2 hc3 x0 x1 x2 x3 x4 xo).1 S512x4096.size (by sl_kernel_rfl) y

/-- The block after a middle slice, over what the slice before left (`xo`). -/
def outMid (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : ¬ k0_cond2 i = 1#1) (hc3 : k0_cond3 i = 1#1) (x0 : Vec F S512x4096 .bf16) (x1 : Vec F S512x1 .f32) (x2 : Vec F S4096x512 .bf16) (x3 : Vec F S4096x512 .bf16) (x4 : Vec F S512x4096 .bf16) (xo : Vec F S512x4096 .f32) : Vec F S512x4096 .f32 :=
  VO.read (Elt F) (VO.writes (Elt F) VO.junk (runMid c i arg2 harg2 arg3 harg3 arg4 harg4 arg5 harg5 arg6 harg6 arg7 harg7 hc1 hc2 hc3 x0 x1 x2 x3 x4 xo).1)

/-- At a last slice the one store covers the whole block. -/
theorem coverLast (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : k0_cond2 i = 1#1) (hc3 : ¬ k0_cond3 i = 1#1) (x0 : Vec F S512x4096 .bf16) (x1 : Vec F S512x1 .f32) (x2 : Vec F S4096x512 .bf16) (x3 : Vec F S4096x512 .bf16) (x4 : Vec F S512x4096 .bf16) (xo : Vec F S512x4096 .f32) (y : S512x4096.Idx) :
    ∃ pc ∈ (runLast c i arg2 harg2 arg3 harg3 arg4 harg4 arg5 harg5 arg6 harg6 arg7 harg7 hc1 hc2 hc3 x0 x1 x2 x3 x4 xo).1, y ∈ pc.1.set :=
  View.cover_of_tiledL (runLast c i arg2 harg2 arg3 harg3 arg4 harg4 arg5 harg5 arg6 harg6 arg7 harg7 hc1 hc2 hc3 x0 x1 x2 x3 x4 xo).1 S512x4096.size (by sl_kernel_rfl) y

/-- The block after a last slice, over what the slice before left (`xo`). -/
def outLast (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : k0_cond2 i = 1#1) (hc3 : ¬ k0_cond3 i = 1#1) (x0 : Vec F S512x4096 .bf16) (x1 : Vec F S512x1 .f32) (x2 : Vec F S4096x512 .bf16) (x3 : Vec F S4096x512 .bf16) (x4 : Vec F S512x4096 .bf16) (xo : Vec F S512x4096 .f32) : Vec F S512x4096 .f32 :=
  VO.read (Elt F) (VO.writes (Elt F) VO.junk (runLast c i arg2 harg2 arg3 harg3 arg4 harg4 arg5 harg5 arg6 harg6 arg7 harg7 hc1 hc2 hc3 x0 x1 x2 x3 x4 xo).1)

/-! ## The case a point is in, from its slice -/

theorem first1 (t : Fin cfg0.N) (h0 : t.val % 28 = 0) : k0_cond1 (grid0.coords t) = 1#1 := (hcond1 t).mpr h0
theorem first2 (t : Fin cfg0.N) (h0 : t.val % 28 = 0) : ¬ k0_cond2 (grid0.coords t) = 1#1 := fun h => by have := (hcond2 t).mp h; omega
theorem first3 (t : Fin cfg0.N) (h0 : t.val % 28 = 0) : k0_cond3 (grid0.coords t) = 1#1 := (hcond3 t).mpr (by omega)
theorem mid1 (t : Fin cfg0.N) (h0 : ¬ t.val % 28 = 0) : ¬ k0_cond1 (grid0.coords t) = 1#1 := fun h => h0 ((hcond1 t).mp h)
theorem mid2 (t : Fin cfg0.N) (h27 : ¬ t.val % 28 = 27) : ¬ k0_cond2 (grid0.coords t) = 1#1 := fun h => h27 ((hcond2 t).mp h)
theorem mid3 (t : Fin cfg0.N) (h27 : ¬ t.val % 28 = 27) : k0_cond3 (grid0.coords t) = 1#1 := (hcond3 t).mpr h27
theorem last1 (t : Fin cfg0.N) (h27 : t.val % 28 = 27) : ¬ k0_cond1 (grid0.coords t) = 1#1 := fun h => by have := (hcond1 t).mp h; omega
theorem last2 (t : Fin cfg0.N) (h27 : t.val % 28 = 27) : k0_cond2 (grid0.coords t) = 1#1 := (hcond2 t).mpr h27
theorem last3 (t : Fin cfg0.N) (h27 : t.val % 28 = 27) : ¬ k0_cond3 (grid0.coords t) = 1#1 := fun h => (hcond3 t).mp h h27

/-! ## What the output's staging buffer holds after each point -/

/-- THE ACCUMULATION. The output block after the body at position `n`: at a first slice what that case leaves; at
    a later slice that slice's case run over what position `n - 1` left (the buffer is not written back between). -/
def outsAt (c : Dev nD) : (n : ℕ) → n < cfg0.N → Vec F S512x4096 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (first1 ⟨0, hn⟩ (Nat.zero_mod _)) (first2 ⟨0, hn⟩ (Nat.zero_mod _)) (first3 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 28 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (first1 ⟨n + 1, hn⟩ h0) (first2 ⟨n + 1, hn⟩ h0) (first3 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else if h27 : (n + 1) % 28 = 27 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (last1 ⟨n + 1, hn⟩ h27) (last2 ⟨n + 1, hn⟩ h27) (last3 ⟨n + 1, hn⟩ h27) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn))
    else
      outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (mid1 ⟨n + 1, hn⟩ h0) (mid2 ⟨n + 1, hn⟩ h27) (mid3 ⟨n + 1, hn⟩ h27) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn))

/-- `outsAt` at a first slice. -/
theorem outsAt_first (c : Dev nD) (t : Fin cfg0.N) (h0 : t.val % 28 = 0) :
    outsAt m c t.val t.isLt = outFirst c (grid0.coords t) (ms0 t) (hs0 t) (ms1 t) (hs1 t) (ms2 t) (hs2 t) (ms3 t) (hs3 t) (ms4 t) (hs4 t) (ms5 t) (hs5 t) (first1 t h0) (first2 t h0) (first3 t h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt` at a middle slice: over what the point before left. -/
theorem outsAt_mid (c : Dev nD) (t : Fin cfg0.N) (h0 : ¬ t.val % 28 = 0) (h27 : ¬ t.val % 28 = 27) :
    outsAt m c t.val t.isLt = outMid c (grid0.coords t) (ms0 t) (hs0 t) (ms1 t) (hs1 t) (ms2 t) (hs2 t) (ms3 t) (hs3 t) (ms4 t) (hs4 t) (ms5 t) (hs5 t) (mid1 t h0) (mid2 t h27) (mid3 t h27) (iblk m c 0 t) (iblk m c 1 t) (iblk m c 2 t) (iblk m c 3 t) (iblk m c 4 t)
      (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h27).trans rfl)

/-- `outsAt` at a last slice: over what the point before left. -/
theorem outsAt_last (c : Dev nD) (t : Fin cfg0.N) (h27 : t.val % 28 = 27) :
    outsAt m c t.val t.isLt = outLast c (grid0.coords t) (ms0 t) (hs0 t) (ms1 t) (hs1 t) (ms2 t) (hs2 t) (ms3 t) (hs3 t) (ms4 t) (hs4 t) (ms5 t) (hs5 t) (last1 t h27) (last2 t h27) (last3 t h27) (iblk m c 0 t) (iblk m c 1 t) (iblk m c 2 t) (iblk m c 3 t) (iblk m c 4 t)
      (outsAt m c (t.val - 1) (Nat.lt_of_le_of_lt (Nat.sub_le _ _) t.isLt)) := by
  obtain ⟨n, hn⟩ := t
  cases n with
  | zero => exact absurd h27 (by show ¬ (0 % 28 = 27); decide)
  | succ n => exact (dif_neg (by dsimp only at h27; omega)).trans ((dif_pos h27).trans rfl)

/-! ## The pipeline's proof data -/

/-- The proof data on core `c`: the arrays as the region finds them; after the body each input's buffer at its
    block and the output's at `outsAt`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Some store into the output block happens at every point: the closing branch is taken at slice 27 and the
    accumulating one everywhere else. -/
theorem live5 (i : grid0.Coords) : cfg0.idle 5 i = false := by
  have key : ∀ j : Fin 28,
      (Scalar.cmpi .ne (Scalar.extui (Scalar.cmpi .eq (BitVec.ofNat 32 j.val) 27#32)) 0#32 == 1#1
        || Scalar.cmpi .ne (Scalar.extui (Scalar.cmpi .ne (BitVec.ofNat 32 j.val) 27#32)) 0#32 == 1#1) = true := by decide
  have h := key (i 1)
  change (k0_cond2 i == 1#1 || k0_cond3 i == 1#1) = true at h
  show (!(k0_cond1 i == 1#1) && !(k0_cond2 i == 1#1) && !(k0_cond3 i == 1#1)) = false
  cases h2 : (k0_cond2 i == 1#1) <;> cases h3 : (k0_cond3 i == 1#1) <;> simp_all

/-- Past a first slice the output's current staging buffer holds what the body left at the point before: the point
    is not the first, and the buffer is written back only after a last slice. -/
theorem before5_kept (c : Dev nD) (t : Fin cfg0.N) (h0 : ¬ t.val % 28 = 0) (d) :
    (dats m 0 c).before 5 t d = (outsAt m c (t.val - 1) (Nat.lt_of_le_of_lt (Nat.sub_le _ _) t.isLt)) := by
  rw [Dat.before_out_kept _ 5 rfl t (by omega) (Bool.eq_false_iff.mpr fun h => by have := (flush0_5 _).mp h; dsimp only at this; omega)
    live5 (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the slice says which case the point is in; past
    a first slice the output's buffer holds what the point before left; so that case's run applies; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 28 = 0
  · rw [outsAt_first m c t h0]
    unfold outFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ (first1 t h0) (first2 t h0) (first3 t h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · simp only [before5_kept m c t h0]
    by_cases h27 : t.val % 28 = 27
    · rw [outsAt_last m c t h27]
      unfold outLast
      iintro ⟨HΦ, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ (last1 t h27) (last2 t h27) (last3 t h27) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast c _ _ _ _ _ _ _ _ _ _ _ _ _ _ _ _ _ _ _ _ _ _)
    · rw [outsAt_mid m c t h0 h27]
      unfold outMid
      iintro ⟨HΦ, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ (mid1 t h0) (mid2 t h27) (mid3 t h27) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverMid c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [live5]
  exact sound_body m c t

/-! ## The run and the frame -/

set_option backward.isDefEq.respectTransparency.types false in
/-- From any memory with zero counters: every weakly fair execution of the program terminates, and every final
    state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KI.OutValues.lean ====
/-
  What each case of the body leaves in the output block, as a value: the payload of its last store, over the input
  blocks and (past a first slice) the block the slice before left; at a first slice, over the zero block just stored.
-/
import proofs.«160657_j23072564314325_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A middle slice leaves the block it found plus this slice's partial product. -/
theorem outMid_eq (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : ¬ k0_cond2 i = 1#1) (hc3 : k0_cond3 i = 1#1) (x0 : Vec F S512x4096 .bf16) (x1 : Vec F S512x1 .f32) (x2 : Vec F S4096x512 .bf16) (x3 : Vec F S4096x512 .bf16) (x4 : Vec F S512x4096 .bf16) (xo : Vec F S512x4096 .f32) :
    outMid c i arg2 harg2 arg3 harg3 arg4 harg4 arg5 harg5 arg6 harg6 arg7 harg7 hc1 hc2 hc3 x0 x1 x2 x3 x4 xo = k0_pay4 x0 x2 x3 x4 xo := by
  unfold outMid
  rw [View.read_writes_eq_canon _ _ _ (coverMid c i arg2 harg2 arg3 harg3 arg4 harg4 arg5 harg5 arg6 harg6 arg7 harg7 hc1 hc2 hc3 x0 x1 x2 x3 x4 xo)]
  unfold runMid
  dsimp only
  rw [View.canon_unit_zero hz]
  simp only [View.readAt_eq_ld, harg2.read_unread, harg4.read_unread, harg5.read_unread, harg6.read_unread, harg7.read_unread,
    View.ld_unit_zero (S := S512x4096) hz, View.ld_unit_zero (S := S4096x512) hz]

/-- A last slice leaves the routing column times (the block it found plus this slice's partial product). -/
theorem outLast_eq (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : ¬ k0_cond1 i = 1#1) (hc2 : k0_cond2 i = 1#1) (hc3 : ¬ k0_cond3 i = 1#1) (x0 : Vec F S512x4096 .bf16) (x1 : Vec F S512x1 .f32) (x2 : Vec F S4096x512 .bf16) (x3 : Vec F S4096x512 .bf16) (x4 : Vec F S512x4096 .bf16) (xo : Vec F S512x4096 .f32) :
    outLast c i arg2 harg2 arg3 harg3 arg4 harg4 arg5 harg5 arg6 harg6 arg7 harg7 hc1 hc2 hc3 x0 x1 x2 x3 x4 xo = k0_pay3 x0 x2 x3 x4 x1 xo := by
  unfold outLast
  rw [View.read_writes_eq_canon _ _ _ (coverLast c i arg2 harg2 arg3 harg3 arg4 harg4 arg5 harg5 arg6 harg6 arg7 harg7 hc1 hc2 hc3 x0 x1 x2 x3 x4 xo)]
  unfold runLast
  dsimp only
  rw [View.canon_unit_zero hz]
  simp only [View.readAt_eq_ld, harg2.read_unread, harg3.read_unread, harg4.read_unread, harg5.read_unread, harg6.read_unread, harg7.read_unread,
    View.ld_unit_zero (S := S512x4096) hz, View.ld_unit_zero (S := S4096x512) hz, View.ld_unit_zero (S := S512x1) hz]

/-- A first slice leaves the zero block plus this slice's partial product. -/
theorem outFirst_eq (c : Dev nD) (i : grid0.Coords)
    (arg2 : Memref sig .tc .vmem S512x4096 .bf16) (harg2 : arg2.IsWhole) (arg3 : Memref sig .tc .vmem S512x1 .f32) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S512x4096 .bf16) (harg6 : arg6.IsWhole) (arg7 : Memref sig .tc .vmem S512x4096 .f32) (harg7 : arg7.IsWhole)
    (hc1 : k0_cond1 i = 1#1) (hc2 : ¬ k0_cond2 i = 1#1) (hc3 : k0_cond3 i = 1#1) (x0 : Vec F S512x4096 .bf16) (x1 : Vec F S512x1 .f32) (x2 : Vec F S4096x512 .bf16) (x3 : Vec F S4096x512 .bf16) (x4 : Vec F S512x4096 .bf16) :
    outFirst c i arg2 harg2 arg3 harg3 arg4 harg4 arg5 harg5 arg6 harg6 arg7 harg7 hc1 hc2 hc3 x0 x1 x2 x3 x4 = k0_pay4 x0 x2 x3 x4 (k0_pay1 (F := F)) := by
  unfold outFirst
  rw [View.read_writes_eq_canon _ _ _ (coverFirst c i arg2 harg2 arg3 harg3 arg4 harg4 arg5 harg5 arg6 harg6 arg7 harg7 hc1 hc2 hc3 x0 x1 x2 x3 x4)]
  unfold runFirst
  dsimp only
  sl_unfold_words
  rw [View.canon_cons_unit_zero (S := S512x4096) hz, View.readCov_unit_zero (S := S512x4096) _ hz]
  simp only [View.readAt_eq_ld, harg2.read_unread, harg4.read_unread, harg5.read_unread, harg6.read_unread,
    View.ld_unit_zero (S := S512x4096) hz, View.ld_unit_zero (S := S4096x512) hz]

end Cert.KernelIdeal.Hand

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.KI.Payload.lean ====
/-
  The body's arithmetic read at an index, over the extended reals. With the token block a [512, 4096], the gate and
  up tiles wg, wu [4096, 512] and the down tile wd [512, 4096]:
    partial (p, q) = Σ_f ((g · logistic g) · u) · wd(f, q),  g = Σₖ a(p, k) · wg(k, f),  u = Σₖ a(p, k) · wu(k, f)
  (the three matrix products into a zero accumulator are plain contractions; the change of float format before the
  last one is the identity); the accumulating store holds the block found plus partial; the closing store holds the
  routing column's entry of the row times (the block found plus partial); the zero block is zero everywhere.
-/
import proofs.«160657_j23072564314325_2_alg».proof.Proof.Gen.KernelIdeal.Skeleton
import proofs.«160657_j23072564314325_2_alg».proof.Proof.LibMatmulRowsByCols
import proofs.«160657_j23072564314325_2_alg».proof.Proof.LibColumnLayout
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- A token block times a gate or up tile, at (p, f). -/
theorem proj_apply (a : FVec Ideal S512x4096 .bf16) (w : FVec Ideal S4096x512 .bf16) (p : Fin 512) (f : Fin 512) :
    matmul dot_S512x4096_S4096x512_S512x512_1_0_0_1_n_n none a w (constant (F := Ideal) S512x512 .f32 0x00000000#32) (ix2 p f)
      = ∑ k : Fin 4096, a (ix2 p k) * w (ix2 k f) :=
  Cert.RowsByCols.matmul_zero_apply dot_S512x4096_S4096x512_S512x512_1_0_0_1_n_n ⟨rfl, rfl, rfl, rfl, rfl, rfl⟩ none a w p f

/-- The hidden tile times the down tile, at (p, q). -/
theorem down_apply (h : FVec Ideal S512x512 .bf16) (w : FVec Ideal S512x4096 .bf16) (p : Fin 512) (q : Fin 4096) :
    matmul dot_S512x512_S512x4096_S512x4096_1_0_0_1_n_n none h w (constant (F := Ideal) S512x4096 .f32 0x00000000#32) (ix2 p q)
      = ∑ f : Fin 512, h (ix2 p f) * w (ix2 f q) :=
  Cert.RowsByCols.matmul_zero_apply dot_S512x512_S512x4096_S512x4096_1_0_0_1_n_n ⟨rfl, rfl, rfl, rfl, rfl, rfl⟩ none h w p q

/-- One slice's partial product at (p, q). -/
theorem pay2_apply (a : FVec Ideal S512x4096 .bf16) (wg wu : FVec Ideal S4096x512 .bf16) (wd : FVec Ideal S512x4096 .bf16)
    (p : Fin 512) (q : Fin 4096) :
    k0_pay2 (F := Ideal) a wg wu wd (ix2 p q) = ∑ f : Fin 512,
      (((∑ k : Fin 4096, a (ix2 p k) * wg (ix2 k f)) * Ideal.logistic (∑ k : Fin 4096, a (ix2 p k) * wg (ix2 k f)))
        * (∑ k : Fin 4096, a (ix2 p k) * wu (ix2 k f))) * wd (ix2 f q) := by
  unfold k0_pay2
  simp only [shapeCast_self]
  refine (down_apply _ _ p q).trans ?_
  refine Finset.sum_congr rfl fun f _ => ?_
  show ((matmul dot_S512x4096_S4096x512_S512x512_1_0_0_1_n_n none a wg (constant (F := Ideal) S512x512 .f32 0x00000000#32) (ix2 p f)
      * Ideal.logistic (matmul dot_S512x4096_S4096x512_S512x512_1_0_0_1_n_n none a wg (constant (F := Ideal) S512x512 .f32 0x00000000#32) (ix2 p f)))
      * matmul dot_S512x4096_S4096x512_S512x512_1_0_0_1_n_n none a wu (constant (F := Ideal) S512x512 .f32 0x00000000#32) (ix2 p f)) * wd (ix2 f q) = _
  rw [proj_apply, proj_apply]

/-- The accumulating store's value at (p, q): what the block held plus the slice's partial product. -/
theorem pay4_apply (a : FVec Ideal S512x4096 .bf16) (wg wu : FVec Ideal S4096x512 .bf16) (wd : FVec Ideal S512x4096 .bf16)
    (xo : FVec Ideal S512x4096 .f32) (p : Fin 512) (q : Fin 4096) :
    k0_pay4 (F := Ideal) a wg wu wd xo (ix2 p q) = xo (ix2 p q) + k0_pay2 (F := Ideal) a wg wu wd (ix2 p q) := by
  unfold k0_pay4
  simp only [shapeCast_self]
  rfl

/-- The closing store's value at (p, q): the row's routing weight times (what the block held plus the partial product). -/
theorem pay3_apply (a : FVec Ideal S512x4096 .bf16) (wg wu : FVec Ideal S4096x512 .bf16) (wd : FVec Ideal S512x4096 .bf16)
    (r : FVec Ideal S512x1 .f32) (xo : FVec Ideal S512x4096 .f32) (p : Fin 512) (q : Fin 4096) :
    k0_pay3 (F := Ideal) a wg wu wd r xo (ix2 p q)
      = r (ix2 p (0 : Fin 1)) * (xo (ix2 p q) + k0_pay2 (F := Ideal) a wg wu wd (ix2 p q)) := by
  unfold k0_pay3
  simp only [shapeCast_self]
  show broadcastTo S512x4096 r broadcasts_S512x1_S512x4096 (ix2 p q) * _ = _
  rw [Cert.LibColumnLayout.broadcastTo_a1_ab_apply]
  rfl

/-- The zero block is zero everywhere. -/
theorem pay1_apply (p : Fin 512) (q : Fin 4096) : k0_pay1 (F := Ideal) (ix2 p q) = 0 := by
  unfold k0_pay1
  exact Ideal.ofBits_zero_f32

end Cert.KernelIdeal.Hand

end
-- ==== Proof.KI.Blocks.lean ====
/-
  Where each window's block sits in its array. At point t (row block t / 28, slice t % 28): the token block and the
  routing block are rows 512·(t/28) … of their arrays; the gate and up tiles are columns 512·(t%28) … of theirs; the
  down tile is rows 512·(t%28) … of its array; the output block is rows 512·(t/28) … of the result. The token and
  weight arrays the region finds are the arguments after a change of float format, which over the extended reals
  changes nothing.
-/
import proofs.«160657_j23072564314325_2_alg».proof.Proof.KI.Frame
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The printed index maps, decided once over the grid. -/
theorem index_facts : ∀ t : Fin cfg0.N,
    win0_0.index t (0 : Fin 2) = t.val / 28 ∧ win0_0.index t (1 : Fin 2) = 0
    ∧ win0_1.index t (0 : Fin 2) = t.val / 28 ∧ win0_1.index t (1 : Fin 2) = 0
    ∧ win0_2.index t (0 : Fin 2) = 0 ∧ win0_2.index t (1 : Fin 2) = t.val % 28
    ∧ win0_3.index t (0 : Fin 2) = 0 ∧ win0_3.index t (1 : Fin 2) = t.val % 28
    ∧ win0_4.index t (0 : Fin 2) = t.val % 28 ∧ win0_4.index t (1 : Fin 2) = 0
    ∧ win0_5.index t (0 : Fin 2) = t.val / 28 ∧ win0_5.index t (1 : Fin 2) = 0 :=
  (by decide +kernel : ∀ t : Fin grid0.N, _)

/-- The token block at (p, k) is the token array at row 512·(t/28) + p. -/
theorem iblk0_apply (c : Dev nD) (t : Fin cfg0.N) (p : Fin 512) (k : Fin 4096) (hT : 512 * (t.val / 28) + p.val < 8192) :
    (iblk m c 0 t : Vec F S512x4096 .bf16) (ix2 p k) = V m c main_v0 (ix2 ⟨512 * (t.val / 28) + p.val, hT⟩ k) := by
  obtain ⟨e0, e1, -⟩ := index_facts t
  unfold iblk
  rw [View.read_apply]
  show V m c main_v0 (((cfg0.win 0).blk t).view.emb (ix2 p k)) = V m c main_v0 _
  refine congrArg (V m c main_v0) ?_
  funext a; apply Fin.ext
  match a with
  | ⟨0, _⟩ => show win0_0.index t (0 : Fin 2) * 512 + 1 * p.val = 512 * (t.val / 28) + p.val; omega
  | ⟨1, _⟩ => show win0_0.index t (1 : Fin 2) * 4096 + 1 * k.val = k.val; omega

/-- The routing block at (p, 0) is the routing array at row 512·(t/28) + p. -/
theorem iblk1_apply (c : Dev nD) (t : Fin cfg0.N) (p : Fin 512) (hT : 512 * (t.val / 28) + p.val < 8192) :
    (iblk m c 1 t : Vec F S512x1 .f32) (ix2 p (0 : Fin 1)) = V m c main_arg1 (ix2 ⟨512 * (t.val / 28) + p.val, hT⟩ (0 : Fin 1)) := by
  obtain ⟨-, -, e0, e1, -⟩ := index_facts t
  unfold iblk
  rw [View.read_apply]
  show V m c main_arg1 (((cfg0.win 1).blk t).view.emb (ix2 p (0 : Fin 1))) = V m c main_arg1 _
  refine congrArg (V m c main_arg1) ?_
  funext a; apply Fin.ext
  match a with
  | ⟨0, _⟩ => show win0_1.index t (0 : Fin 2) * 512 + 1 * p.val = 512 * (t.val / 28) + p.val; omega
  | ⟨1, _⟩ => show win0_1.index t (1 : Fin 2) * 1 + 1 * 0 = 0; omega

/-- The gate tile at (k, f) is the gate array at column 512·(t%28) + f. -/
theorem iblk2_apply (c : Dev nD) (t : Fin cfg0.N) (k : Fin 4096) (f : Fin 512) (hf : 512 * (t.val % 28) + f.val < 14336) :
    (iblk m c 2 t : Vec F S4096x512 .bf16) (ix2 k f) = V m c main_v1 (ix2 k ⟨512 * (t.val % 28) + f.val, hf⟩) := by
  obtain ⟨-, -, -, -, e0, e1, -⟩ := index_facts t
  unfold iblk
  rw [View.read_apply]
  show V m c main_v1 (((cfg0.win 2).blk t).view.emb (ix2 k f)) = V m c main_v1 _
  refine congrArg (V m c main_v1) ?_
  funext a; apply Fin.ext
  match a with
  | ⟨0, _⟩ => show win0_2.index t (0 : Fin 2) * 4096 + 1 * k.val = k.val; omega
  | ⟨1, _⟩ => show win0_2.index t (1 : Fin 2) * 512 + 1 * f.val = 512 * (t.val % 28) + f.val; omega

/-- The up tile at (k, f) is the up array at column 512·(t%28) + f. -/
theorem iblk3_apply (c : Dev nD) (t : Fin cfg0.N) (k : Fin 4096) (f : Fin 512) (hf : 512 * (t.val % 28) + f.val < 14336) :
    (iblk m c 3 t : Vec F S4096x512 .bf16) (ix2 k f) = V m c main_v2 (ix2 k ⟨512 * (t.val % 28) + f.val, hf⟩) := by
  obtain ⟨-, -, -, -, -, -, e0, e1, -⟩ := index_facts t
  unfold iblk
  rw [View.read_apply]
  show V m c main_v2 (((cfg0.win 3).blk t).view.emb (ix2 k f)) = V m c main_v2 _
  refine congrArg (V m c main_v2) ?_
  funext a; apply Fin.ext
  match a with
  | ⟨0, _⟩ => show win0_3.index t (0 : Fin 2) * 4096 + 1 * k.val = k.val; omega
  | ⟨1, _⟩ => show win0_3.index t (1 : Fin 2) * 512 + 1 * f.val = 512 * (t.val % 28) + f.val; omega

/-- The down tile at (f, q) is the down array at row 512·(t%28) + f. -/
theorem iblk4_apply (c : Dev nD) (t : Fin cfg0.N) (f : Fin 512) (q : Fin 4096) (hf : 512 * (t.val % 28) + f.val < 14336) :
    (iblk m c 4 t : Vec F S512x4096 .bf16) (ix2 f q) = V m c main_v3 (ix2 ⟨512 * (t.val % 28) + f.val, hf⟩ q) := by
  obtain ⟨-, -, -, -, -, -, -, -, e0, e1, -⟩ := index_facts t
  unfold iblk
  rw [View.read_apply]
  show V m c main_v3 (((cfg0.win 4).blk t).view.emb (ix2 f q)) = V m c main_v3 _
  refine congrArg (V m c main_v3) ?_
  funext a; apply Fin.ext
  match a with
  | ⟨0, _⟩ => show win0_4.index t (0 : Fin 2) * 512 + 1 * f.val = 512 * (t.val % 28) + f.val; omega
  | ⟨1, _⟩ => show win0_4.index t (1 : Fin 2) * 4096 + 1 * q.val = q.val; omega

/-! ## The arrays the region finds -/

theorem V_v0 (c : Dev nD) : (V m c main_v0 : S8192x4096.Idx → Elt F .bf16) = truncf .bf16 (m ((c : Thread nD τ).loc main_arg0)) bitsLt_bf16_f32 := by
  dsimp only [V, hostOps0]; after_results
theorem V_v1 (c : Dev nD) : (V m c main_v1 : S4096x14336.Idx → Elt F .bf16) = truncf .bf16 (m ((c : Thread nD τ).loc main_arg2)) bitsLt_bf16_f32 := by
  dsimp only [V, hostOps0]; after_results
theorem V_v2 (c : Dev nD) : (V m c main_v2 : S4096x14336.Idx → Elt F .bf16) = truncf .bf16 (m ((c : Thread nD τ).loc main_arg3)) bitsLt_bf16_f32 := by
  dsimp only [V, hostOps0]; after_results
theorem V_v3 (c : Dev nD) : (V m c main_v3 : S14336x4096.Idx → Elt F .bf16) = truncf .bf16 (m ((c : Thread nD τ).loc main_arg4)) bitsLt_bf16_f32 := by
  dsimp only [V, hostOps0]; after_results

end Cert.KernelIdeal.Hand

end
-- ==== Proof.LibTileSum.lean ====
/-
  A sum over a long axis, taken tile by tile.

  For a function `f` of a natural number with values in any commutative additive monoid (the extended reals
  below), adding up `T` consecutive tiles of `K` terms each is adding up the first `T * K` terms: only
  associativity of the sum is used, so nothing is asked of the terms (they may be infinite).
-/
import Mathlib.Algebra.BigOperators.Fin
import Mathlib.Algebra.BigOperators.Intervals

namespace Cert.TileSum

open Finset

/-- `T` tiles of `K` consecutive terms, summed tile by tile, are the first `T * K` terms summed once. -/
theorem sum_tiles {M : Type*} [AddCommMonoid M] (K : ℕ) (f : ℕ → M) :
    ∀ T : ℕ, ∑ s ∈ range T, ∑ kk : Fin K, f (K * s + kk.val) = ∑ k : Fin (T * K), f k.val
  | 0 => by
    rw [Finset.sum_range_zero, ← Finset.sum_range (fun k => f k), Nat.zero_mul, Finset.sum_range_zero]
  | T + 1 => by
    rw [Finset.sum_range_succ, sum_tiles K f T, ← Finset.sum_range (fun k => f k),
      ← Finset.sum_range (fun k => f k), ← Finset.sum_range (fun kk => f (K * T + kk)),
      Nat.succ_mul, Finset.sum_range_add, Nat.mul_comm K T]

end Cert.TileSum
-- ==== Proof.MlpSpec.lean ====
/-
  The function both programs compute, and the one law that joins their two arrangements of it.

  For tokens X [8192, 4096], routing weights R [8192, 1], gate and up projections Wg, Wu [4096, 14336] and the down
  projection Wd [14336, 4096], over the extended reals:
    pre W (T, f) = Σₖ X(T, k) · W(k, f)                        the two projections of a token onto hidden unit f
    hid (T, f)   = (pre Wg · logistic (pre Wg)) · pre Wu         the gated hidden activation
    G (T, q)     = R(T) · Σ_f hid(T, f) · Wd(f, q)               the result
  The kernel takes the sum over the 14336 hidden units as 28 tiles of 512 consecutive units, one tile per grid
  slice; regrouping a sum needs only associativity, so nothing is asked of the terms (they may be infinite).
-/
import Idealize.ShloMosaic.PureOps.Ideal
import Idealize.ShloMosaic.PureOps.Ideal.Laws
import Idealize.ShloMosaic.Lib.ValueIdx
import proofs.«160657_j23072564314325_2_alg».proof.Proof.LibTileSum

noncomputable section

namespace Cert.Mlp

open Idealize.ShloMosaic Idealize.ShloMosaic.ValueIdx
open scoped BigOperators

abbrev SX : Shape := ⟨2, ![8192, 4096]⟩
abbrev SR : Shape := ⟨2, ![8192, 1]⟩
abbrev SW : Shape := ⟨2, ![4096, 14336]⟩
abbrev SD : Shape := ⟨2, ![14336, 4096]⟩

variable (X : SX.Idx → EReal) (R : SR.Idx → EReal) (Wg Wu : SW.Idx → EReal) (Wd : SD.Idx → EReal)

/-- A token's projection onto hidden unit `f` through the matrix `W`. -/
def pre (W : SW.Idx → EReal) (T : Fin 8192) (f : Fin 14336) : EReal := ∑ k : Fin 4096, X (ix2 T k) * W (ix2 k f)

/-- The gated hidden activation: the gate projection times its logistic, times the up projection. -/
def hid (T : Fin 8192) (f : Fin 14336) : EReal :=
  (pre X Wg T f * Ideal.logistic (pre X Wg T f)) * pre X Wu T f

/-- Hidden unit `k`'s term of the down projection at token `T` and model column `q`, as a function of natural
    numbers (zero outside the arrays, where it is never read). -/
def term (T : ℕ) (q : Fin 4096) (k : ℕ) : EReal :=
  if h : T < 8192 ∧ k < 14336 then hid X Wg Wu ⟨T, h.1⟩ ⟨k, h.2⟩ * Wd (ix2 ⟨k, h.2⟩ q) else 0

/-- Token `T`'s routing weight, as a function of a natural number. -/
def rowW (T : ℕ) : EReal := if h : T < 8192 then R (ix2 ⟨T, h⟩ (0 : Fin 1)) else 0

/-- THE RESULT: the routing weight times the down projection of the gated hidden activations. -/
def G : SX.Idx → EReal := fun i =>
  R (ix2 (i 0) (0 : Fin 1)) * ∑ f : Fin 14336, hid X Wg Wu (i 0) f * Wd (ix2 f (i 1))

/-- The down projection summed tile by tile (28 tiles of 512 hidden units) and then scaled is the result. -/
theorem G_tiles (T : Fin 8192) (q : Fin 4096) :
    rowW R T.val * ∑ j ∈ Finset.range 28, ∑ kk : Fin 512, term X Wg Wu Wd T.val q (512 * j + kk.val)
      = G X R Wg Wu Wd (ix2 T q) := by
  have e : ∑ f : Fin 14336, hid X Wg Wu T f * Wd (ix2 f q) = ∑ k ∈ Finset.range 14336, term X Wg Wu Wd T.val q k := by
    rw [Finset.sum_range]
    refine Finset.sum_congr rfl fun f _ => ?_
    unfold term; rw [dif_pos ⟨T.isLt, f.isLt⟩]
  rw [Cert.TileSum.sum_tiles 512 (term X Wg Wu Wd T.val q) 28, ← Finset.sum_range (fun k => term X Wg Wu Wd T.val q k)]
  show rowW R T.val * _ = R (ix2 T (0 : Fin 1)) * ∑ f : Fin 14336, hid X Wg Wu T f * Wd (ix2 f q)
  rw [e]; unfold rowW; rw [dif_pos T.isLt]

end Cert.Mlp

end
-- ==== Proof.KI.Value.lean ====
/-
  The value of the kernel program over the extended reals. Along a row block the output block holds, after slice s,
  the sum of the partial products of slices 0 … s (the zero it starts from adds nothing), and after the last slice
  that sum scaled row by row by the routing weights; a partial product is the down projection restricted to the
  slice's 512 hidden units; so the block written back after the last slice is the row block of the result function
  (28 tiles of 512 units are all 14336 units), and the sixteen blocks written back cover the result array.
-/
import proofs.«160657_j23072564314325_2_alg».proof.Proof.KI.OutValues
import proofs.«160657_j23072564314325_2_alg».proof.Proof.KI.Payload
import proofs.«160657_j23072564314325_2_alg».proof.Proof.KI.Blocks
import proofs.«160657_j23072564314325_2_alg».proof.Proof.MlpSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## One step of the accumulation, at any float instance -/

section Steps
variable (m : (ℓ : Loc nD τ sig) → Buf (Elt F) ℓ)

theorem step_first (c : Dev nD) (t : Fin cfg0.N) (h0 : t.val % 28 = 0) :
    outsAt m c t.val t.isLt = k0_pay4 (iblk m c 0 t) (iblk m c 2 t) (iblk m c 3 t) (iblk m c 4 t) (k0_pay1 (F := F)) :=
  (outsAt_first m c t h0).trans
    (outFirst_eq c (grid0.coords t) (ms0 t) (hs0 t) (ms1 t) (hs1 t) (ms2 t) (hs2 t) (ms3 t) (hs3 t) (ms4 t) (hs4 t) (ms5 t) (hs5 t) (first1 t h0) (first2 t h0) (first3 t h0) (iblk m c 0 t) (iblk m c 1 t) (iblk m c 2 t) (iblk m c 3 t) (iblk m c 4 t))

theorem step_mid (c : Dev nD) (t : Fin cfg0.N) (h0 : ¬ t.val % 28 = 0) (h27 : ¬ t.val % 28 = 27) :
    outsAt m c t.val t.isLt = k0_pay4 (iblk m c 0 t) (iblk m c 2 t) (iblk m c 3 t) (iblk m c 4 t) (outsAt m c (t.val - 1) (Nat.lt_of_le_of_lt (Nat.sub_le _ _) t.isLt)) :=
  (outsAt_mid m c t h0 h27).trans
    (outMid_eq c (grid0.coords t) (ms0 t) (hs0 t) (ms1 t) (hs1 t) (ms2 t) (hs2 t) (ms3 t) (hs3 t) (ms4 t) (hs4 t) (ms5 t) (hs5 t) (mid1 t h0) (mid2 t h27) (mid3 t h27) (iblk m c 0 t) (iblk m c 1 t) (iblk m c 2 t) (iblk m c 3 t) (iblk m c 4 t) (outsAt m c (t.val - 1) (Nat.lt_of_le_of_lt (Nat.sub_le _ _) t.isLt)))

theorem step_last (c : Dev nD) (t : Fin cfg0.N) (h27 : t.val % 28 = 27) :
    outsAt m c t.val t.isLt = k0_pay3 (iblk m c 0 t) (iblk m c 2 t) (iblk m c 3 t) (iblk m c 4 t) (iblk m c 1 t) (outsAt m c (t.val - 1) (Nat.lt_of_le_of_lt (Nat.sub_le _ _) t.isLt)) :=
  (outsAt_last m c t h27).trans
    (outLast_eq c (grid0.coords t) (ms0 t) (hs0 t) (ms1 t) (hs1 t) (ms2 t) (hs2 t) (ms3 t) (hs3 t) (ms4 t) (hs4 t) (ms5 t) (hs5 t) (last1 t h27) (last2 t h27) (last3 t h27) (iblk m c 0 t) (iblk m c 1 t) (iblk m c 2 t) (iblk m c 3 t) (iblk m c 4 t) (outsAt m c (t.val - 1) (Nat.lt_of_le_of_lt (Nat.sub_le _ _) t.isLt)))

end Steps

/-! ## Over the extended reals -/

variable (m : (ℓ : Loc nD τ sig) → Buf (Elt Ideal) ℓ) (ρ : Dev nD → PrngReg)

/-- The argument arrays on core `c`, as arrays of extended reals. -/
abbrev aX (c : Dev nD) : Cert.Mlp.SX.Idx → EReal := m ((c : Thread nD τ).loc main_arg0)
abbrev aR (c : Dev nD) : Cert.Mlp.SR.Idx → EReal := m ((c : Thread nD τ).loc main_arg1)
abbrev aG (c : Dev nD) : Cert.Mlp.SW.Idx → EReal := m ((c : Thread nD τ).loc main_arg2)
abbrev aU (c : Dev nD) : Cert.Mlp.SW.Idx → EReal := m ((c : Thread nD τ).loc main_arg3)
abbrev aD (c : Dev nD) : Cert.Mlp.SD.Idx → EReal := m ((c : Thread nD τ).loc main_arg4)

/-- The result function of the argument arrays on core `c`. -/
abbrev Gk (c : Dev nD) : Cert.Mlp.SX.Idx → EReal := Cert.Mlp.G (aX m c) (aR m c) (aG m c) (aU m c) (aD m c)

/-- The blocks of the arrays the region finds are blocks of the arguments. -/
theorem blkX (c : Dev nD) (t : Fin cfg0.N) (p : Fin 512) (k : Fin 4096) (hT : 512 * (t.val / 28) + p.val < 8192) :
    (iblk m c 0 t : Vec Ideal S512x4096 .bf16) (ix2 p k) = aX m c (ix2 ⟨512 * (t.val / 28) + p.val, hT⟩ k) :=
  (iblk0_apply m c t p k hT).trans (congrFun (V_v0 m c) _)
theorem blkG (c : Dev nD) (t : Fin cfg0.N) (k : Fin 4096) (f : Fin 512) (hf : 512 * (t.val % 28) + f.val < 14336) :
    (iblk m c 2 t : Vec Ideal S4096x512 .bf16) (ix2 k f) = aG m c (ix2 k ⟨512 * (t.val % 28) + f.val, hf⟩) :=
  (iblk2_apply m c t k f hf).trans (congrFun (V_v1 m c) _)
theorem blkU (c : Dev nD) (t : Fin cfg0.N) (k : Fin 4096) (f : Fin 512) (hf : 512 * (t.val % 28) + f.val < 14336) :
    (iblk m c 3 t : Vec Ideal S4096x512 .bf16) (ix2 k f) = aU m c (ix2 k ⟨512 * (t.val % 28) + f.val, hf⟩) :=
  (iblk3_apply m c t k f hf).trans (congrFun (V_v2 m c) _)
theorem blkD (c : Dev nD) (t : Fin cfg0.N) (f : Fin 512) (q : Fin 4096) (hf : 512 * (t.val % 28) + f.val < 14336) :
    (iblk m c 4 t : Vec Ideal S512x4096 .bf16) (ix2 f q) = aD m c (ix2 ⟨512 * (t.val % 28) + f.val, hf⟩ q) :=
  (iblk4_apply m c t f q hf).trans (congrFun (V_v3 m c) _)

theorem tN (t : Fin cfg0.N) : t.val < 448 := lt_of_lt_of_eq t.isLt (show cfg0.N = 448 from N_0)

/-- A slice's partial product at (p, q) is the down projection's terms of the slice's 512 hidden units. -/
theorem partial_eq (c : Dev nD) (t : Fin cfg0.N) (p : Fin 512) (q : Fin 4096) :
    k0_pay2 (F := Ideal) (iblk m c 0 t) (iblk m c 2 t) (iblk m c 3 t) (iblk m c 4 t) (ix2 p q)
      = ∑ kk : Fin 512, Cert.Mlp.term (aX m c) (aG m c) (aU m c) (aD m c) (512 * (t.val / 28) + p.val) q (512 * (t.val % 28) + kk.val) := by
  have hN := tN t
  refine (pay2_apply (iblk m c 0 t) (iblk m c 2 t) (iblk m c 3 t) (iblk m c 4 t) p q).trans ?_
  refine Finset.sum_congr rfl fun f _ => ?_
  have hT : 512 * (t.val / 28) + p.val < 8192 := by have := p.isLt; omega
  have hf : 512 * (t.val % 28) + f.val < 14336 := by have := f.isLt; omega
  unfold Cert.Mlp.term
  rw [dif_pos ⟨hT, hf⟩]
  unfold Cert.Mlp.hid Cert.Mlp.pre
  simp only [fun k => blkX m c t p k hT, fun k => blkG m c t k f hf, fun k => blkU m c t k f hf, blkD m c t f q hf]

theorem at_first (c : Dev nD) (t : Fin cfg0.N) (h0 : t.val % 28 = 0) (p : Fin 512) (q : Fin 4096) :
    outsAt m c t.val t.isLt (ix2 p q)
      = ∑ kk : Fin 512, Cert.Mlp.term (aX m c) (aG m c) (aU m c) (aD m c) (512 * (t.val / 28) + p.val) q (512 * (t.val % 28) + kk.val) := by
  rw [step_first m c t h0]
  refine (pay4_apply (iblk m c 0 t) (iblk m c 2 t) (iblk m c 3 t) (iblk m c 4 t) (k0_pay1 (F := Ideal)) p q).trans ?_
  rw [pay1_apply, zero_add]
  exact partial_eq m c t p q

theorem at_mid (c : Dev nD) (t : Fin cfg0.N) (h0 : ¬ t.val % 28 = 0) (h27 : ¬ t.val % 28 = 27) (p : Fin 512) (q : Fin 4096) :
    outsAt m c t.val t.isLt (ix2 p q)
      = (outsAt m c (t.val - 1) (Nat.lt_of_le_of_lt (Nat.sub_le _ _) t.isLt)) (ix2 p q)
        + ∑ kk : Fin 512, Cert.Mlp.term (aX m c) (aG m c) (aU m c) (aD m c) (512 * (t.val / 28) + p.val) q (512 * (t.val % 28) + kk.val) := by
  rw [step_mid m c t h0 h27]
  refine (pay4_apply (iblk m c 0 t) (iblk m c 2 t) (iblk m c 3 t) (iblk m c 4 t) (outsAt m c (t.val - 1) (Nat.lt_of_le_of_lt (Nat.sub_le _ _) t.isLt)) p q).trans ?_
  rw [partial_eq m c t p q]

theorem at_last (c : Dev nD) (t : Fin cfg0.N) (h27 : t.val % 28 = 27) (p : Fin 512) (q : Fin 4096) :
    outsAt m c t.val t.isLt (ix2 p q)
      = Cert.Mlp.rowW (aR m c) (512 * (t.val / 28) + p.val) * ((outsAt m c (t.val - 1) (Nat.lt_of_le_of_lt (Nat.sub_le _ _) t.isLt)) (ix2 p q)
        + ∑ kk : Fin 512, Cert.Mlp.term (aX m c) (aG m c) (aU m c) (aD m c) (512 * (t.val / 28) + p.val) q (512 * (t.val % 28) + kk.val)) := by
  have hN := tN t
  have hT : 512 * (t.val / 28) + p.val < 8192 := by have := p.isLt; omega
  rw [step_last m c t h27]
  refine (pay3_apply (iblk m c 0 t) (iblk m c 2 t) (iblk m c 3 t) (iblk m c 4 t) (iblk m c 1 t) (outsAt m c (t.val - 1) (Nat.lt_of_le_of_lt (Nat.sub_le _ _) t.isLt)) p q).trans ?_
  rw [partial_eq m c t p q, iblk1_apply m c t p hT, V_main_arg1]
  unfold Cert.Mlp.rowW
  rw [dif_pos hT]

/-- The sum of the partial products of slices 0 … n % 28 of row block n / 28, at (p, q). -/
def acc (c : Dev nD) (n : ℕ) (p : Fin 512) (q : Fin 4096) : EReal :=
  ∑ j ∈ Finset.range (n % 28 + 1), ∑ kk : Fin 512, Cert.Mlp.term (aX m c) (aG m c) (aU m c) (aD m c) (512 * (n / 28) + p.val) q (512 * j + kk.val)

/-- THE RUNNING SUM: what the output block holds after position `n`, by induction on the position. -/
theorem outsAt_eq (c : Dev nD) : ∀ (n : ℕ) (h : n < cfg0.N) (p : Fin 512) (q : Fin 4096),
    outsAt m c n h (ix2 p q)
      = if n % 28 = 27 then Cert.Mlp.rowW (aR m c) (512 * (n / 28) + p.val) * acc m c n p q else acc m c n p q
  | 0, h, p, q => by
    rw [at_first m c ⟨0, h⟩ rfl p q, if_neg (by decide)]
    unfold acc
    dsimp only
    rw [Finset.sum_range_one]
  | n + 1, h, p, q => by
    by_cases h0 : (n + 1) % 28 = 0
    · rw [at_first m c ⟨n + 1, h⟩ h0 p q, if_neg (by omega)]
      unfold acc
      dsimp only
      rw [h0, Finset.sum_range_one]
    · have hn27 : ¬ n % 28 = 27 := by omega
      have e1 : (n + 1) / 28 = n / 28 := by omega
      have e2 : (n + 1) % 28 = n % 28 + 1 := by omega
      by_cases h27 : (n + 1) % 28 = 27
      · rw [at_last m c ⟨n + 1, h⟩ h27 p q, if_pos h27]
        show _ * (outsAt m c n _ (ix2 p q) + _) = _
        rw [outsAt_eq c n (Nat.lt_of_succ_lt h) p q, if_neg hn27]
        unfold acc
        dsimp only
        rw [e1, e2, Finset.sum_range_succ _ (n % 28 + 1)]
      · rw [at_mid m c ⟨n + 1, h⟩ h0 h27 p q, if_neg h27]
        show outsAt m c n _ (ix2 p q) + _ = _
        rw [outsAt_eq c n (Nat.lt_of_succ_lt h) p q, if_neg hn27]
        unfold acc
        dsimp only
        rw [e1, e2, Finset.sum_range_succ _ (n % 28 + 1)]

/-! ## The result array -/

/-- WHAT A LAST SLICE WRITES BACK is its row block of the result function. -/
theorem flushed_eq (c : Dev nD) (t : Fin cfg0.N) (hf : (cfg0.win 5).flush t = true) :
    (dats m 0 c).flushed 5 t = ((cfg0.win 5).blk t).view.read (Elt Ideal) (Gk m c) := by
  have h27 : t.val % 28 = 27 := (flush0_5 t).mp hf
  have hN := tN t
  obtain ⟨-, -, -, -, -, -, -, -, -, -, e0, e1⟩ := index_facts t
  show (cfg0.win 5).cut (grid0.coords t) ((dats m 0 c).after 5 t) = _
  rw [after5]
  funext y
  obtain ⟨p, q, rfl⟩ : ∃ (p : Fin 512) (q : Fin 4096), y = ix2 p q := ⟨y 0, y 1, eq_ix2 y⟩
  rw [View.read_apply]
  show outsAt m c t.val t.isLt (ix2 p q) = Gk m c (((cfg0.win 5).blk t).view.emb (ix2 p q))
  have hT : 512 * (t.val / 28) + p.val < 8192 := by have := p.isLt; omega
  have hemb : ((cfg0.win 5).blk t).view.emb (ix2 p q) = ix2 (⟨512 * (t.val / 28) + p.val, hT⟩ : Fin 8192) q := by
    funext a; apply Fin.ext
    match a with
    | ⟨0, _⟩ => show win0_5.index t (0 : Fin 2) * 512 + 1 * p.val = 512 * (t.val / 28) + p.val; omega
    | ⟨1, _⟩ => show win0_5.index t (1 : Fin 2) * 4096 + 1 * q.val = q.val; omega
  rw [hemb, outsAt_eq m c t.val t.isLt p q, if_pos h27]
  refine Eq.trans ?_ (Cert.Mlp.G_tiles (aX m c) (aR m c) (aG m c) (aU m c) (aD m c) ⟨512 * (t.val / 28) + p.val, hT⟩ q)
  unfold acc
  rw [h27]

/-- An index of the result array is in point `t`'s block iff each coordinate is in the block's range on its axis. -/
theorem mem_blk5 (t : Fin cfg0.N) (i : S8192x4096.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v4).slice (win0_5.rect t)).set ↔ _
  rw [View.set_slice_whole, Rect.mem_set_unit]
  exact Iff.rfl

/-- Every index of the result array is in the block some last slice writes back: row T is in row block T / 512. -/
theorem cover5 (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 448 := N_0
  obtain ⟨t, htv⟩ : ∃ t : Fin cfg0.N, t.val = 28 * ((i 0).val / 512) + 27 := ⟨⟨28 * ((i 0).val / 512) + 27, by omega⟩, rfl⟩
  obtain ⟨-, -, -, -, -, -, -, -, -, -, e0, e1⟩ := index_facts t
  refine ⟨t, (flush0_5 t).mpr (by omega), ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 4096 ≤ (i 1).val ∧ (i 1).val < win0_5.index t (1 : Fin 2) * 4096 + 4096; omega

/-- THE RESULT ARRAY after the run is the result function of the argument arrays. -/
theorem final5 (c : Dev nD) : (dats m 0 c).arrAt 5 cfg0.N = Gk m c :=
  (dats m 0 c).arrAt_eq_of_cover 5 (Gk m c) (flushed_eq m c) cover5

/-- The run, read: the result array at the result function, the arguments unchanged. -/
theorem run : θ_run defs (onTc (τ := τ) (main (F := Ideal))) ⟨m, fun _ => 0, ρ⟩ fun r => ∀ c : Dev nD,
      r.2.mem ((c.tc : Thread nD τ).loc main_v4) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Hand

end
-- ==== Proof.RefIsSpec.lean ====
/-
  The reference computes the result function: its three general dot products are the plain contractions, its
  spelling of the logistic (one over one plus the exponential of the negation) is the logistic, and the broadcast
  of the routing column along the model axis reads the token's weight.
-/
import proofs.«160657_j23072564314325_2_alg».proof.Proof.Gen.ReferenceIdeal.Read
import proofs.«160657_j23072564314325_2_alg».proof.Proof.MlpSpec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx
open scoped BigOperators

theorem lidx0 (T : Fin 8192) (f : Fin 14336) (k : Fin 4096) : lidx_main_v0 (ix2 T f) k = ix2 T k :=
  funext fun a => Fin.ext (by match a with | ⟨0, _⟩ => rfl | ⟨1, _⟩ => rfl)
theorem ridx0 (T : Fin 8192) (f : Fin 14336) (k : Fin 4096) : ridx_main_v0 (ix2 T f) k = ix2 k f :=
  funext fun a => Fin.ext (by match a with | ⟨0, _⟩ => rfl | ⟨1, _⟩ => rfl)
theorem lidx1 (T : Fin 8192) (f : Fin 14336) (k : Fin 4096) : lidx_main_v1 (ix2 T f) k = ix2 T k :=
  funext fun a => Fin.ext (by match a with | ⟨0, _⟩ => rfl | ⟨1, _⟩ => rfl)
theorem ridx1 (T : Fin 8192) (f : Fin 14336) (k : Fin 4096) : ridx_main_v1 (ix2 T f) k = ix2 k f :=
  funext fun a => Fin.ext (by match a with | ⟨0, _⟩ => rfl | ⟨1, _⟩ => rfl)
theorem lidx4 (T : Fin 8192) (q : Fin 4096) (k : Fin 14336) : lidx_main_v4 (ix2 T q) k = ix2 T k :=
  funext fun a => Fin.ext (by match a with | ⟨0, _⟩ => rfl | ⟨1, _⟩ => rfl)
theorem ridx4 (T : Fin 8192) (q : Fin 4096) (k : Fin 14336) : ridx_main_v4 (ix2 T q) k = ix2 k q :=
  funext fun a => Fin.ext (by match a with | ⟨0, _⟩ => rfl | ⟨1, _⟩ => rfl)
theorem idx5 (T : Fin 8192) (q : Fin 4096) : idx_main_v5 (ix2 T q) = ix2 T (0 : Fin 1) :=
  funext fun a => Fin.ext (by match a with | ⟨0, _⟩ => rfl | ⟨1, _⟩ => rfl)

/-- The gated hidden activation as the reference computes it. -/
theorem hidden_eq (x0 : S8192x4096.Idx → EReal) (x2 x3 : S4096x14336.Idx → EReal) (T : Fin 8192) (f : Fin 14336) :
    val_main_v3 (F := Ideal) x0 x2 x3 (ix2 T f) = Cert.Mlp.hid x0 x2 x3 T f := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, val_main_v1_apply, val_main_v0_apply]
  simp only [lidx0, ridx0, lidx1, ridx1]
  show (_ * Ideal.div (Ideal.ofBits .f32 0x3F800000#32) (Ideal.ofBits .f32 0x3F800000#32 + Ideal.exp (-_))) * _ = _
  rw [Ideal.ofBits_one_f32]
  rfl

/-- THE REFERENCE IS THE RESULT FUNCTION. -/
theorem ref_eq (x0 : S8192x4096.Idx → EReal) (x1 : S8192x1.Idx → EReal) (x2 x3 : S4096x14336.Idx → EReal)
    (x4 : S14336x4096.Idx → EReal) :
    val_main_v6 (F := Ideal) x0 x1 x2 x3 x4 = Cert.Mlp.G x0 x1 x2 x3 x4 := by
  funext i
  obtain ⟨T, q, rfl⟩ : ∃ (T : Fin 8192) (q : Fin 4096), i = ix2 T q := ⟨i 0, i 1, eq_ix2 i⟩
  rw [val_main_v6_apply, val_main_v5_apply, val_main_v4_apply, idx5]
  simp only [lidx4, ridx4, hidden_eq]
  rfl

end Cert.ReferenceIdeal.RefValue

end
-- ==== Proof.lean ====
/-
  The proof of the claim: a fused expert layer — tokens projected through a gate and an up matrix, the gate passed
  through x · logistic x and multiplied by the up projection, projected back down and scaled token by token by a
  routing weight — computed by a kernel that walks the hidden axis in 28 slices of 512 units, accumulating the down
  projection in the output block, against the same layer written as three whole matrix products.

  Over the extended reals the two are one function: each of the kernel's matrix products into a zero accumulator and
  each of the reference's general dot products is the plain contraction; the kernel's logistic and the reference's
  one over one plus the exponential of the negation are one function; the changes of float format are the identity;
  and the down projection summed slice by slice is the whole sum, by associativity alone, so that no finiteness of
  the inputs is used. The kernel's frames are proved from the body's three control cases (first, middle and last slice
  of a row block); the reference's frame is its run with the result dropped; the idealization rewrote nothing.
-/
import proofs.«160657_j23072564314325_2_alg».proof.Defs
import proofs.«160657_j23072564314325_2_alg».proof.Proof.Gen.Kernel
import proofs.«160657_j23072564314325_2_alg».proof.Proof.Gen.KernelIdeal
import proofs.«160657_j23072564314325_2_alg».proof.Proof.Gen.ReferenceIdeal
import proofs.«160657_j23072564314325_2_alg».proof.Proof.Gen.Pre_finite_inputs
import proofs.«160657_j23072564314325_2_alg».proof.Proof.K.Frame
import proofs.«160657_j23072564314325_2_alg».proof.Proof.KI.Value
import proofs.«160657_j23072564314325_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result function of arguments that agree. -/
theorem algebraic : Cert.algebraic_KernelIdeal_ReferenceIdeal := by
  intro m ρ m' ρ' _ hagree
  refine ⟨fun c => Cert.KernelIdeal.Hand.Gk m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v6_eq _ _ _ _ _).trans (Cert.ReferenceIdeal.RefValue.ref_eq _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
